-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S16x4096 : Shape := ⟨2, ![16, 4096]⟩
abbrev S32x1 : Shape := ⟨2, ![32, 1]⟩
abbrev S32x16 : Shape := ⟨2, ![32, 16]⟩
abbrev S16x32 : Shape := ⟨2, ![16, 32]⟩
abbrev S4096x16 : Shape := ⟨2, ![4096, 16]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S16x4096 : S_.BroadcastsInDim S16x4096 (![] : Fin 0 → Fin S16x4096.rank)
  reducesTo_S16x4096_S_d0_1 : S16x4096.ReducesTo [0, 1] S_
  bcast_S_S32x1 : S_.BroadcastsInDim S32x1 (![] : Fin 0 → Fin S32x1.rank)
  reducesTo_S32x1_S_d0_1 : S32x1.ReducesTo [0, 1] S_
  bcast_S_S32x16 : S_.BroadcastsInDim S32x16 (![] : Fin 0 → Fin S32x16.rank)
  reducesTo_S32x16_S_d0_1 : S32x16.ReducesTo [0, 1] S_
  bcast_S_S16x32 : S_.BroadcastsInDim S16x32 (![] : Fin 0 → Fin S16x32.rank)
  reducesTo_S16x32_S_d0_1 : S16x32.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S16x32 .f32) (main_arg5 : FVec F S4096x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S4096x16 .f32 := Host.absf main_arg5
  let main_cst_8 : FVec F S_ .f32 := constant S_ .f32 0x7F800000#32
  let main_v25 : FVec F S4096x16 .f32 := broadcastInDim S4096x16 ![] bcast_S_S4096x16 main_cst_8
  let main_v26 : IVec S4096x16 1 := cmpf .olt main_v24 main_v25
  let main_c_9 : IVec S_ 1 := constantI S_ 1 1#1
  let main_v27 : IVec S_ 1 := (fun x v => Host.reduce IntOp.andi x v reducesTo_S4096x16_S_d0_1 h_S_) main_v26 main_c_9
  let main_v28 : IVec S_ 1 := andi main_v23 main_v27
  main_v28

def fn {F : FTy → Type} [FloatOps F] (main_arg0 : FVec F S4x4096x4096 .f32) (main_arg1 : FVec F S16x4096 .f32) (main_arg2 : FVec F S32x1 .f32) (main_arg3 : FVec F S32x16 .f32) (main_arg4 : FVec F S16x32 .f32) (main_arg5 : FVec F S4096x16 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S16x4096 .f32 := Host.absf main_arg1
  let main_cst_0 : FVec F S_ .f32 := constant S_ .f32 0x7F800000#32
  let main_v5 : FVec F S16x4096 .f32 := broadcastInDim S16x4096 ![] bcast_S_S16x4096 main_cst_0
  let main_v6 : IVec S16x4096 1 := cmpf .olt main_v4 main_v5
  let main_c_1 : IVec S_ 1 := constantI S_ 1 1#1
  let main_v7 : IVec S_ 1 := (fun x v => Host.reduce IntOp.andi x v reducesTo_S16x4096_S_d0_1 h_S_) main_v6 main_c_1
  let main_v8 : IVec S_ 1 := andi main_v3 main_v7
  let main_v9 : FVec F S32x1 .f32 := Host.absf main_arg2
  let main_cst_2 : FVec F S_ .f32 := constant S_ .f32 0x7F800000#32
  let main_v10 : FVec F S32x1 .f32 := broadcastInDim S32x1 ![] bcast_S_S32x1 main_cst_2
  let main_v11 : IVec S32x1 1 := cmpf .olt main_v9 main_v10
  let main_c_3 : IVec S_ 1 := constantI S_ 1 1#1
  let main_v12 : IVec S_ 1 := (fun x v => Host.reduce IntOp.andi x v reducesTo_S32x1_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_arg5 main_v13 main_v16
-- ==== Kernel.lean ====
abbrev S4x4096x4096 : Shape := ⟨3, ![4, 4096, 4096]⟩
abbrev S16x4096 : Shape := ⟨2, ![16, 4096]⟩
abbrev S32x1 : Shape := ⟨2, ![32, 1]⟩
abbrev S32x16 : Shape := ⟨2, ![32, 16]⟩
abbrev S16x32 : Shape := ⟨2, ![16, 32]⟩
abbrev S4096x16 : Shape := ⟨2, ![4096, 16]⟩
abbrev S32 : Shape := ⟨1, ![32]⟩
abbrev S1x32 : Shape := ⟨2, ![1, 32]⟩
abbrev S16x16 : Shape := ⟨2, ![16, 16]⟩
abbrev S1x256x4096 : Shape := ⟨3, ![1, 256, 4096]⟩
abbrev S256x4096 : Shape := ⟨2, ![256, 4096]⟩
abbrev S256x16 : Shape := ⟨2, ![256, 16]⟩

abbrev nBuf : Space → Nat
  | .hbm => 17
  | .vmem => 6
  | .smem => 0
  | _ => 0

abbrev bufTy : (tb : Table) → Fin (tcTables nBuf tb) → BufTy
  | .hbm, ⟨0, _⟩ => ⟨S4x4096x4096, .f32⟩
  | .hbm, ⟨1, _⟩ => ⟨S16x4096, .f32⟩
  | .hbm, ⟨2, _⟩ => ⟨S32x1, .f32⟩
  | .hbm, ⟨3, _⟩ => ⟨S32x16, .f32⟩
  | .hbm, ⟨4, _⟩ => ⟨S16x32, .f32⟩
  | .hbm, ⟨5, _⟩ => ⟨S4096x16, .f32⟩
  | .hbm, ⟨6, _⟩ => ⟨S32, .f32⟩
  | .hbm, ⟨7, _⟩ => ⟨S16x32, .f32⟩
  | .hbm, ⟨8, _⟩ => ⟨S1x32, .f32⟩
  | .hbm, ⟨9, _⟩ => ⟨S16x32, .f32⟩
  | .hbm, ⟨10, _⟩ => ⟨S16x32, .f32⟩
  | .hbm, ⟨11, _⟩ => ⟨S32x16, .f32⟩
  | .hbm, ⟨12, _⟩ => ⟨S16x16, .f32⟩
  | .hbm, ⟨13, _⟩ => ⟨S16x16, .f32⟩
  | .hbm, ⟨14, _⟩ => ⟨S16x4096, .f32⟩
  | .hbm, ⟨15, _⟩ => ⟨S16x4096, .f32⟩
  | .hbm, ⟨16, _⟩ => ⟨S4x4096x4096, .f32⟩
  | .local _ .vmem, ⟨0, _⟩ => ⟨S1x256x4096, .f32⟩
  | .local _ .vmem, ⟨1, _⟩ => ⟨S1x256x4096, .f32⟩
  | .local _ .vmem, ⟨2, _⟩ => ⟨S16x4096, .f32⟩
  | .local _ .vmem, ⟨3, _⟩ => ⟨S16x4096, .f32⟩
  | .local _ .vmem, ⟨4, _⟩ => ⟨S1x256x4096, .f32⟩
  | .local _ .vmem, ⟨5, _⟩ => ⟨S1x256x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S32x1_S32 : S32x1.ShapeCasts S32
  transposes_S32x16_S16x32_1_0 : S32x16.Transposes [1, 0] S16x32
  bcast_S32_S1x32_1 : S32.BroadcastsInDim S1x32 (![1] : Fin 1 → Fin S1x32.rank)
  bcast_S1x32_S16x32_0_1 : S1x32.BroadcastsInDim S16x32 (![0, 1] : Fin 2 → Fin S16x32.rank)
  transposes_S16x32_S32x16_1_0 : S16x32.Transposes [1, 0] S32x16
  transposes_S16x16_S16x16_1_0 : S16x16.Transposes [1, 0] S16x16
  transposes_S4096x16_S16x4096_1_0 : S4096x16.Transposes [1, 0] S16x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  shapeCasts_S256x4096_S1x256x4096 : S256x4096.ShapeCasts S1x256x4096
  dot_S16x32_S32x16_S16x16_1_0_0_1_n_n_wf : DotDims.WF S16x32 S32x16 S16x16 [1] [0] [0] [1] [] []
  dot_S16x16_S16x4096_S16x4096_1_0_0_1_n_n_wf : DotDims.WF S16x16 S16x4096 S16x4096 [1] [0] [0] [1] [] []
  dot_S256x4096_S16x4096_S256x16_1_1_0_0_n_n_wf : DotDims.WF S256x4096 S16x4096 S256x16 [1] [1] [0] [0] [] []
  dot_S256x16_S16x4096_S256x4096_1_0_0_1_n_n_wf : DotDims.WF S256x16 S16x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x4096x4096.size a
  hwx0_0 : ∀ i : grid0.Coords, EltTy.bits .f32 = 32 ∨ (Rect.block (s := S4x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S16x4096.size a
  hwx0_1 : ∀ i : grid0.Coords, EltTy.bits .f32 = 32 ∨ (Rect.block (s := S16x4096) S16x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x4096.size a ≤ S4x4096x4096.size a
  hwx0_3 : ∀ i : grid0.Coords, EltTy.bits .f32 = 32 ∨ (Rect.block (s := S4x4096x4096) S1x256x4096.size (cc0_transform_3 i) (hinb0_3 i)).WholeWords (EltTy.packing .f32)

variable [Facts₀]

def dot_S16x32_S32x16_S16x16_1_0_0_1_n_n : DotDims S16x32 S32x16 S16x16 where
  lhsContracting := [1]
  rhsContracting := [0]
  lhsNonContracting := [0]
  rhsNonContracting := [1]
  lhsBatch := []
  rhsBatch := []
  wf := dot_S16x32_S32x16_S16x16_1_0_0_1_n_n_wf
def dot_S16x16_S16x4096_S16x4096_1_0_0_1_n_n : DotDims S16x16 S16x4096 S16x4096 where
  lhsContracting := [1]
  rhsContracting := [0]
  lhsNonContracting := [0]
  rhsNonContracting := [1]
  lhsBatch := []
  rhsBatch := []
  wf := dot_S16x16_S16x4096_S16x4096_1_0_0_1_n_n_wf
def dot_S256x4096_S16x4096_S256x16_1_1_0_0_n_n : DotDims S256x4096 S16x4096 S256x16 where
  lhsContracting := [1]
  rhsContracting := [1]
  lhsNonContracting := [0]
  rhsNonContracting := [0]
  lhsBatch := []
  rhsBatch := []
  wf := dot_S256x4096_S16x4096_S256x16_1_1_0_0_n_n_wf
def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S16x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S16x4096 : Shape := ⟨2, ![16, 4096]⟩
abbrev S32x1 : Shape := ⟨2, ![32, 1]⟩
abbrev S32x16 : Shape := ⟨2, ![32, 16]⟩
abbrev S16x32 : Shape := ⟨2, ![16, 32]⟩
abbrev S4096x16 : Shape := ⟨2, ![4096, 16]⟩
abbrev S32 : Shape := ⟨1, ![32]⟩
abbrev S4x4096x16 : Shape := ⟨3, ![4, 4096, 16]⟩
abbrev S4x4096x32 : Shape := ⟨3, ![4, 4096, 32]⟩
abbrev S1x1x32 : Shape := ⟨3, ![1, 1, 32]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S16x4096, .f32⟩
  | .hbm, ⟨2, _⟩ => ⟨S32x1, .f32⟩
  | .hbm, ⟨3, _⟩ => ⟨S32x16, .f32⟩
  | .hbm, ⟨4, _⟩ => ⟨S16x32, .f32⟩
  | .hbm, ⟨5, _⟩ => ⟨S4096x16, .f32⟩
  | .hbm, ⟨6, _⟩ => ⟨S32, .f32⟩
  | .hbm, ⟨7, _⟩ => ⟨S4x4096x16, .f32⟩
  | .hbm, ⟨8, _⟩ => ⟨S4x4096x32, .f32⟩
  | .hbm, ⟨9, _⟩ => ⟨S1x1x32, .f32⟩
  | .hbm, ⟨10, _⟩ => ⟨S4x4096x32, .f32⟩
  | .hbm, ⟨11, _⟩ => ⟨S4x4096x32, .f32⟩
  | .hbm, ⟨12, _⟩ => ⟨S4x4096x16, .f32⟩
  | .hbm, ⟨13, _⟩ => ⟨S4x4096x4096, .f32⟩
  | .hbm, ⟨14, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  shapeCasts_S32x1_S32 : S32x1.ShapeCasts S32
  bcast_S32_S1x1x32_2 : S32.BroadcastsInDim S1x1x32 (![2] : Fin 1 → Fin S1x1x32.rank)
  bcast_S1x1x32_S4x4096x32_0_1_2 : S1x1x32.BroadcastsInDim S4x4096x32 (![0, 1, 2] : Fin 3 → Fin S4x4096x32.rank)
  dot_S4x4096x4096_S16x4096_S4x4096x16_2_1_01_0_n_n_wf : DotDims.WF S4x4096x4096 S16x4096 S4x4096x16 [2] [1] [0, 1] [0] [] []
  dot_S4x4096x16_S32x16_S4x4096x32_2_1_01_0_n_n_wf : DotDims.WF S4x4096x16 S32x16 S4x4096x32 [2] [1] [0, 1] [0] [] []
  dot_S4x4096x32_S16x32_S4x4096x16_2_1_01_0_n_n_wf : DotDims.WF S4x4096x32 S16x32 S4x4096x16 [2] [1] [0, 1] [0] [] []
  dot_S4x4096x16_S4096x16_S4x4096x4096_2_1_01_0_n_n_wf : DotDims.WF S4x4096x16 S4096x16 S4x4096x4096 [2] [1] [0, 1] [0] [] []

variable [Facts₀]

def dot_S4x4096x4096_S16x4096_S4x4096x16_2_1_01_0_n_n : DotDims S4x4096x4096 S16x4096 S4x4096x16 where
  lhsContracting := [2]
  rhsContracting := [1]
  lhsNonContracting := [0, 1]
  rhsNonContracting := [0]
  lhsBatch := []
  rhsBatch := []
  wf := dot_S4x4096x4096_S16x4096_S4x4096x16_2_1_01_0_n_n_wf
def dot_S4x4096x16_S32x16_S4x4096x32_2_1_01_0_n_n : DotDims S4x4096x16 S32x16 S4x4096x32 where
  lhsContracting := [2]
  rhsContracting := [1]
  lhsNonContracting := [0, 1]
  rhsNonContracting := [0]
  lhsBatch := []
  rhsBatch := []
  wf := dot_S4x4096x16_S32x16_S4x4096x32_2_1_01_0_n_n_wf
def dot_S4x4096x32_S16x32_S4x4096x16_2_1_01_0_n_n : DotDims S4x4096x32 S16x32 S4x4096x16 where
  lhsContracting := [2]
  rhsContracting := [1]
  lhsNonContracting := [0, 1]
  rhsNonContracting := [0]
  lhsBatch := []
  rhsBatch := []
  wf := dot_S4x4096x32_S16x32_S4x4096x16_2_1_01_0_n_n_wf
def dot_S4x4096x16_S4096x16_S4x4096x4096_2_1_01_0_n_n : DotDims S4x4096x16 S4096x16 S4x4096x4096 where
  lhsContracting := [2]
  rhsContracting := [1]
  lhsNonContracting := [0, 1]
  rhsNonContracting := [0]
  lhsBatch := []
  rhsBatch := []
  wf := dot_S4x4096x16_S4096x16_S4x4096x4096_2_1_01_0_n_n_wf

class Facts : Prop extends Facts₀ where

variable [Facts]
-- ==== Proof.LibFoldedChain.lean ====
/-
  A chain of low-rank matrix products, regrouped.

  A row vector x (length D) is pushed through a chain  x ↦ x·Aᵀ ↦ (·)·Bᵀ ↦ (·)∘e ↦ ⟨·, a⟩ :
      Σ_r ( ( Σ_k ( Σ_d x_d · A_{k,d} ) · B_{r,k} ) · e_r ) · a_r .
  Because every factor is a real number, the three finite sums may be interchanged and the products regrouped, so the
  same number is obtained by first folding the small factors into one row  w_d = Σ_k ( Σ_r (B_{r,k} · e_r) · a_r ) · A_{k,d}
  and then taking the single dot product  Σ_d x_d · w_d.  Over the extended reals this needs every entry to be a real
  (finite) number: distributivity of · over + is exactly what fails at ±∞.
-/
import Idealize.ShloMosaic.PureOps.Ideal

noncomputable section

namespace Cert.Lib

/-- The inclusion of the reals in the extended reals commutes with finite sums. -/
theorem ereal_coe_finsum {ι : Type*} (s : Finset ι) (f : ι → ℝ) :
    ((∑ i ∈ s, f i : ℝ) : EReal) = ∑ i ∈ s, (f i : EReal) :=
  map_sum (⟨⟨Real.toEReal, EReal.coe_zero⟩, EReal.coe_add⟩ : ℝ →+ EReal) f s

/-- Over the reals: the dot product of `x` with the folded row equals the chain applied step by step. -/
theorem folded_chain_real {D K R : Type*} [Fintype D] [Fintype K] [Fintype R]
    (x : D → ℝ) (A : K → D → ℝ) (B : R → K → ℝ) (e : R → ℝ) (a : R → ℝ) :
    ∑ d, x d * (∑ k, (∑ r, (B r k * e r) * a r) * A k d)
      = ∑ r, ((∑ k, (∑ d, x d * A k d) * B r k) * e r) * a r := by
  have hl : ∀ d, x d * (∑ k, (∑ r, (B r k * e r) * a r) * A k d)
      = ∑ k, ∑ r, x d * A k d * B r k * e r * a r := by
    intro d
    rw [Finset.mul_sum]
    refine Finset.sum_congr rfl fun k _ => ?_
    rw [Finset.sum_mul, Finset.mul_sum]
    refine Finset.sum_congr rfl fun r _ => ?_
    ring
  have hr : ∀ r, ((∑ k, (∑ d, x d * A k d) * B r k) * e r) * a r
      = ∑ k, ∑ d, x d * A k d * B r k * e r * a r := by
    intro r
    simp only [Finset.sum_mul]
  simp only [hl, hr]
  calc ∑ d, ∑ k, ∑ r, x d * A k d * B r k * e r * a r
      = ∑ d, ∑ r, ∑ k, x d * A k d * B r k * e r * a r := Finset.sum_congr rfl fun d _ => Finset.sum_comm
    _ = ∑ r, ∑ d, ∑ k, x d * A k d * B r k * e r * a r := Finset.sum_comm
    _ = ∑ r, ∑ k, ∑ d, x d * A k d * B r k * e r * a r := Finset.sum_congr rfl fun r _ => Finset.sum_comm

/-- Over the extended reals, for families whose every entry is a real number: the same regrouping. -/
theorem folded_chain {D K R : Type*} [Fintype D] [Fintype K] [Fintype R]
    (x : D → EReal) (A : K → D → EReal) (B : R → K → EReal) (e : R → EReal) (a : R → EReal)
    (hx : ∀ d, ∃ v : ℝ, x d = v) (hA : ∀ k d, ∃ v : ℝ, A k d = v) (hB : ∀ r k, ∃ v : ℝ, B r k = v)
    (he : ∀ r, ∃ v : ℝ, e r = v) (ha : ∀ r, ∃ v : ℝ, a r = v) :
    ∑ d, x d * (∑ k, (∑ r, (B r k * e r) * a r) * A k d)
      = ∑ r, ((∑ k, (∑ d, x d * A k d) * B r k) * e r) * a r := by
  choose x' hx using hx
  choose A' hA using hA
  choose B' hB using hB
  choose e' he using he
  choose a' ha using ha
  simp only [hx, hA, hB, he, ha, ← EReal.coe_mul, ← ereal_coe_finsum]
  exact congrArg _ (folded_chain_real x' A' B' e' a')

end Cert.Lib

end
-- ==== Proof.Spec.lean ====
/-
  The low-rank update as one function of the six argument arrays.

  base is [4, 4096, 4096] (batch, position, feature); A is [16, 4096], E is [32, 1], B is [32, 16], aa is [16, 32] and
  bb is [4096, 16].  For a row x = base[b, s, ·] the update is

      out[b, s, d] = x_d + Σ_j ( Σ_r ( ( Σ_k ( Σ_c x_c · A[k, c] ) · B[r, k] ) · E[r, 0] ) · aa[j, r] ) · bb[d, j] ,

  the chain x·Aᵀ·Bᵀ·diag(E)·aaᵀ·bbᵀ evaluated left to right (`update`).  The small factors can be folded once into
  the [16, 4096] matrix  W[j, c] = Σ_k ( Σ_r (B[r, k] · E[r, 0]) · aa[j, r] ) · A[k, c]  (`folded`), after which
  out[b, s, d] = x_d + Σ_j ( Σ_c x_c · W[j, c] ) · bb[d, j]  (`update_eq_folded`) — an identity of finite sums of real
  numbers, so it is stated for arrays all of whose entries are real.
-/
import Idealize.ShloMosaic.PureOps.Ideal
import Idealize.ShloMosaic.Lib.ValueIdx
import proofs.«165357_j30502857736485_2_alg».proof.Proof.LibFoldedChain

noncomputable section

namespace Cert.LowRank

open Idealize.ShloMosaic Idealize.ShloMosaic.ValueIdx

/-- Every entry of an array of extended reals is a real number. -/
def AllReal {s : Shape} (x : s.Idx → EReal) : Prop := ∀ i, ∃ v : ℝ, x i = v

/-- The update with the chain of products taken left to right, one output entry at a time. -/
def update (x : (⟨3, ![4, 4096, 4096]⟩ : Shape).Idx → EReal) (A : (⟨2, ![16, 4096]⟩ : Shape).Idx → EReal)
    (E : (⟨2, ![32, 1]⟩ : Shape).Idx → EReal) (B : (⟨2, ![32, 16]⟩ : Shape).Idx → EReal)
    (aa : (⟨2, ![16, 32]⟩ : Shape).Idx → EReal) (bb : (⟨2, ![4096, 16]⟩ : Shape).Idx → EReal) :
    (⟨3, ![4, 4096, 4096]⟩ : Shape).Idx → EReal :=
  fun i => x i + ∑ j : Fin 16, (∑ r : Fin 32, ((∑ k : Fin 16, (∑ c : Fin 4096, x (ix3 (i 0) (i 1) c) * A (ix2 k c))
      * B (ix2 r k)) * E (ix2 r (0 : Fin 1))) * aa (ix2 j r)) * bb (ix2 (i 2) j)

/-- The small factors folded into one [16, 4096] matrix. -/
def folded (A : (⟨2, ![16, 4096]⟩ : Shape).Idx → EReal) (E : (⟨2, ![32, 1]⟩ : Shape).Idx → EReal)
    (B : (⟨2, ![32, 16]⟩ : Shape).Idx → EReal) (aa : (⟨2, ![16, 32]⟩ : Shape).Idx → EReal) :
    (⟨2, ![16, 4096]⟩ : Shape).Idx → EReal :=
  fun q => ∑ k : Fin 16, (∑ r : Fin 32, (B (ix2 r k) * E (ix2 r (0 : Fin 1))) * aa (ix2 (q 0) r)) * A (ix2 k (q 1))

/-- With real entries, the update is the row's dot products with the folded matrix, re-expanded by bb. -/
theorem update_eq_folded (x : (⟨3, ![4, 4096, 4096]⟩ : Shape).Idx → EReal) (A : (⟨2, ![16, 4096]⟩ : Shape).Idx → EReal)
    (E : (⟨2, ![32, 1]⟩ : Shape).Idx → EReal) (B : (⟨2, ![32, 16]⟩ : Shape).Idx → EReal)
    (aa : (⟨2, ![16, 32]⟩ : Shape).Idx → EReal) (bb : (⟨2, ![4096, 16]⟩ : Shape).Idx → EReal)
    (hx : AllReal x) (hA : AllReal A) (hE : AllReal E) (hB : AllReal B) (ha : AllReal aa)
    (b : Fin 4) (s : Fin 4096) (d : Fin 4096) :
    update x A E B aa bb (ix3 b s d)
      = x (ix3 b s d) + ∑ j : Fin 16, (∑ c : Fin 4096, x (ix3 b s c) * folded A E B aa (ix2 j c)) * bb (ix2 d j) := by
  show x (ix3 b s d) + ∑ j : Fin 16, (∑ r : Fin 32, ((∑ k : Fin 16, (∑ c : Fin 4096, x (ix3 b s c) * A (ix2 k c))
      * B (ix2 r k)) * E (ix2 r (0 : Fin 1))) * aa (ix2 j r)) * bb (ix2 d j) = _
  refine congrArg (x (ix3 b s d) + ·) (Finset.sum_congr rfl fun j _ => congrArg (· * bb (ix2 d j)) ?_)
  exact (Cert.Lib.folded_chain (fun c => x (ix3 b s c)) (fun k c => A (ix2 k c)) (fun r k => B (ix2 r k))
    (fun r => E (ix2 r (0 : Fin 1))) (fun r => aa (ix2 j r))
    (fun c => hx _) (fun k c => hA _) (fun r k => hB _) (fun r => hE _) (fun r => ha _)).symm

end Cert.LowRank

end
-- ==== Proof.Finite.lean ====
/-
  What the precondition says: every entry of every argument array is a real number.

  The precondition compares |x| with +∞ entry by entry and takes the conjunction over each array and then over the six
  arrays.  An extended real whose absolute value max(x, −x) is strictly below +∞ is neither +∞ nor −∞, hence a real.
-/
import proofs.«165357_j30502857736485_2_alg».proof.Pre_finite_inputs
import proofs.«165357_j30502857736485_2_alg».proof.Proof.Gen.Pre_finite_inputs
import proofs.«165357_j30502857736485_2_alg».proof.Proof.Spec
import Idealize.ShloMosaic.PureOps.Ideal.Laws
import Idealize.ShloMosaic.Lib.ReduceAll
import Idealize.ShloMosaic.Lib.ValueIdx

noncomputable section

namespace Cert.LowRank

open Idealize.ShloMosaic Idealize.ShloMosaic.ValueIdx Cert.Pre_finite_inputs

instance : Subsingleton Cert.Pre_finite_inputs.S_.Idx := ⟨fun a b => funext fun d => d.elim0⟩

/-- The f32 pattern with exponent all ones and zero fraction denotes +∞. -/
theorem ofBits_inf : Ideal.ofBits .f32 0x7F800000#32 = (⊤ : EReal) := by
  simp [Ideal.ofBits, Ideal.ieee]

/-- An extended real with |x| < +∞ is a real number. -/
theorem real_of_abs_lt_top (x : EReal) (h : max x (-x) < ⊤) : ∃ v : ℝ, x = v := by
  induction x using EReal.rec with
  | bot => simp at h
  | coe r => exact ⟨r, rfl⟩
  | top => simp at h

/-- One array's test `all (|x| < +∞)` gives that all its entries are real. -/
theorem allReal_of_all {s : Shape} {axes : List (Fin s.rank)} (x : FVec Ideal s .f32)
    (bc : S_.BroadcastsInDim s (![] : Fin 0 → Fin s.rank)) (rd : s.ReducesTo axes S_) (hu : 0 < S_.numel)
    (h : Host.reduce IntOp.andi (cmpf .olt (Host.absf x) (broadcastInDim s ![] bc (constant (F := Ideal) S_ .f32 0x7F800000#32)))
      (constantI S_ 1 1#1) rd hu ix0 = 1#1) : AllReal x := by
  intro i
  have hi := Host.reduce_andi_all _ _ rd hu ix0 h i
  have hlt : max (x i) (-(x i)) < Ideal.ofBits .f32 0x7F800000#32 := by
    have h1 : BitVec.ofBool (decide (max (x i) (-(x i)) < Ideal.ofBits .f32 0x7F800000#32)) = 1#1 := hi
    have hb : ∀ b : Bool, BitVec.ofBool b = 1#1 → b = true := by decide
    exact of_decide_eq_true (hb _ h1)
  rw [ofBits_inf] at hlt
  exact real_of_abs_lt_top _ hlt

/-- The precondition, decoded: all six argument arrays have real entries. -/
theorem allReal_of_pre (a0 : FVec Ideal S4x4096x4096 .f32) (a1 : FVec Ideal S16x4096 .f32) (a2 : FVec Ideal S32x1 .f32)
    (a3 : FVec Ideal S32x16 .f32) (a4 : FVec Ideal S16x32 .f32) (a5 : FVec Ideal S4096x16 .f32)
    (h : Cert.Pre_finite_inputs.fn (F := Ideal) a0 a1 a2 a3 a4 a5 = fun _ => 1#1) :
    AllReal a0 ∧ AllReal a1 ∧ AllReal a2 ∧ AllReal a3 ∧ AllReal a4 ∧ AllReal a5 := by
  have h0 := congrFun h ix0
  dsimp only [Cert.Pre_finite_inputs.fn, Cert.Pre_finite_inputs.fn_part1] at h0
  simp only [andi, IntOp.andi_eq_one] at h0
  obtain ⟨⟨⟨⟨⟨h0, h1⟩, h2⟩, h3⟩, h4⟩, h5⟩ := h0
  exact ⟨allReal_of_all _ _ _ _ h0, allReal_of_all _ _ _ _ h1, allReal_of_all _ _ _ _ h2, allReal_of_all _ _ _ _ h3,
    allReal_of_all _ _ _ _ h4, allReal_of_all _ _ _ _ h5⟩

end Cert.LowRank

end
-- ==== Proof.RefValue.lean ====
/-
  The reference computes `update`.

  Its result is base plus four contractions in a row, each over the last axis of its left operand:
  with A ([16, 4096]), with B ([32, 16]), a scaling of the 32 lanes by E, with aa ([16, 32]) and with bb ([4096, 16]).
  Read at the entry (b, s, d) these are the nested sums of `update`, in the same order and grouping.
-/
import proofs.«165357_j30502857736485_2_alg».proof.Proof.Gen.ReferenceIdeal.Read
import proofs.«165357_j30502857736485_2_alg».proof.Proof.Spec

noncomputable section

namespace Cert.LowRank.Ref

open Cert.ReferenceIdeal Cert.ReferenceIdeal.Read Idealize.ShloMosaic Idealize.ShloMosaic.ValueIdx

variable (x0 : (⟨S4x4096x4096, .f32⟩ : BufTy).Contents (Elt Ideal)) (x1 : (⟨S16x4096, .f32⟩ : BufTy).Contents (Elt Ideal))
  (x2 : (⟨S32x1, .f32⟩ : BufTy).Contents (Elt Ideal)) (x3 : (⟨S32x16, .f32⟩ : BufTy).Contents (Elt Ideal))
  (x4 : (⟨S16x32, .f32⟩ : BufTy).Contents (Elt Ideal)) (x5 : (⟨S4096x16, .f32⟩ : BufTy).Contents (Elt Ideal))

/-- base contracted with A: entry (b, s, k) is the dot product of row (b, s) of base with row k of A. -/
theorem v1_apply (b : Fin 4) (s : Fin 4096) (k : Fin 16) :
    val_main_v1 (F := Ideal) x0 x1 (ix3 b s k) = ∑ c : Fin 4096, x0 (ix3 b s c) * x1 (ix2 k c) := by
  rw [val_main_v1_apply]
  refine Finset.sum_congr rfl fun c _ => ?_
  have el : lidx_main_v1 (ix3 b s k) c = ix3 b s c := funext fun a => by
    match a with | ⟨0, _⟩ => rfl | ⟨1, _⟩ => rfl | ⟨2, _⟩ => rfl
  have er : ridx_main_v1 (ix3 b s k) c = ix2 k c := funext fun a => by
    match a with | ⟨0, _⟩ => rfl | ⟨1, _⟩ => rfl
  rw [el, er]

/-- … then with B: entry (b, s, r). -/
theorem v2_apply (b : Fin 4) (s : Fin 4096) (r : Fin 32) :
    val_main_v2 (F := Ideal) x0 x1 x3 (ix3 b s r)
      = ∑ k : Fin 16, (∑ c : Fin 4096, x0 (ix3 b s c) * x1 (ix2 k c)) * x3 (ix2 r k) := by
  rw [val_main_v2_apply]
  refine Finset.sum_congr rfl fun k _ => ?_
  have el : lidx_main_v2 (ix3 b s r) k = ix3 b s k := funext fun a => by
    match a with | ⟨0, _⟩ => rfl | ⟨1, _⟩ => rfl | ⟨2, _⟩ => rfl
  have er : ridx_main_v2 (ix3 b s r) k = ix2 r k := funext fun a => by
    match a with | ⟨0, _⟩ => rfl | ⟨1, _⟩ => rfl
  rw [el, er, v1_apply]

/-- The scaling vector, broadcast over batch and position: lane r carries E[r, 0]. -/
theorem v4_apply (b : Fin 4) (s : Fin 4096) (r : Fin 32) :
    val_main_v4 (F := Ideal) x2 (ix3 b s r) = x2 (ix2 r (0 : Fin 1)) := by
  rw [val_main_v4_apply, val_main_v3_apply, val_main_v0_apply]
  refine congrArg x2 (funext fun a => ?_)
  match a with
  | ⟨0, _⟩ => exact Fin.ext (Nat.div_one _)
  | ⟨1, _⟩ => rfl

/-- … the scaled lanes contracted with aa: entry (b, s, j). -/
theorem v6_apply (b : Fin 4) (s : Fin 4096) (j : Fin 16) :
    val_main_v6 (F := Ideal) x0 x1 x2 x3 x4 (ix3 b s j)
      = ∑ r : Fin 32, ((∑ k : Fin 16, (∑ c : Fin 4096, x0 (ix3 b s c) * x1 (ix2 k c)) * x3 (ix2 r k))
          * x2 (ix2 r (0 : Fin 1))) * x4 (ix2 j r) := by
  rw [val_main_v6_apply]
  refine Finset.sum_congr rfl fun r _ => ?_
  have el : lidx_main_v6 (ix3 b s j) r = ix3 b s r := funext fun a => by
    match a with | ⟨0, _⟩ => rfl | ⟨1, _⟩ => rfl | ⟨2, _⟩ => rfl
  have er : ridx_main_v6 (ix3 b s j) r = ix2 j r := funext fun a => by
    match a with | ⟨0, _⟩ => rfl | ⟨1, _⟩ => rfl
  rw [el, er, val_main_v5_apply, v2_apply, v4_apply]
  rfl

/-- The reference's result is `update` of its six arguments. -/
theorem result_eq_update :
    val_main_v8 (F := Ideal) x0 x1 x2 x3 x4 x5 = Cert.LowRank.update x0 x1 x2 x3 x4 x5 := by
  funext i
  obtain ⟨b, s, d, rfl⟩ : ∃ (b : Fin 4) (s : Fin 4096) (d : Fin 4096), i = ix3 b s d := ⟨i 0, i 1, i 2, eq_ix3 i⟩
  rw [val_main_v8_apply, val_main_v7_apply]
  show x0 (ix3 b s d) + _ = x0 (ix3 b s d) + _
  refine congrArg (x0 (ix3 b s d) + ·) (Finset.sum_congr rfl fun j _ => ?_)
  have el : lidx_main_v7 (ix3 b s d) j = ix3 b s j := funext fun a => by
    match a with | ⟨0, _⟩ => rfl | ⟨1, _⟩ => rfl | ⟨2, _⟩ => rfl
  have er : ridx_main_v7 (ix3 b s d) j = ix2 d j := funext fun a => by
    match a with | ⟨0, _⟩ => rfl | ⟨1, _⟩ => rfl
  rw [el, er, v6_apply]

end Cert.LowRank.Ref

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.LibRowsDot.lean ====
/-
  A matrix product with the right operand given by rows.

  For a left operand of M rows by K columns and a right operand of N rows by K columns, contracted along the
  column axis of both (no batch axis), the product has entry (p, q) equal to the dot product of row p of the left
  with row q of the right:  Σ_k l[p, k] · r[q, k].  Over the extended reals the matrix unit's product into a zero
  accumulator is exactly this finite sum: no rounding, and no order of accumulation to speak of.
-/
import Idealize.ShloMosaic.Lib.ValueIdx
import Idealize.ShloMosaic.PureOps.Ideal.Laws

noncomputable section

namespace Cert.Lib

open Idealize.ShloMosaic Idealize.ShloMosaic.ValueIdx

variable {M K N : Nat}

/-- The left operand's row coordinate is the result's row. -/
theorem rowsDot_lhs_row (j : (⟨2, ![M, N]⟩ : Shape).Idx) (k : (DotDims.transposedRhs M K N).contr.Idx) :
    ((DotDims.transposedRhs M K N).lhsIdx j k 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem rowsDot_lhs_col (j : (⟨2, ![M, N]⟩ : Shape).Idx) (k : (DotDims.transposedRhs M K N).contr.Idx) :
    ((DotDims.transposedRhs M K N).lhsIdx j k 1).val = (k ⟨0, Nat.one_pos⟩).val :=
  (DotDims.transposedRhs M K N).lhsIdx_val_of_single rfl j k

/-- The right operand's row coordinate is the result's column. -/
theorem rowsDot_rhs_row (j : (⟨2, ![M, N]⟩ : Shape).Idx) (k : (DotDims.transposedRhs M K N).contr.Idx) :
    ((DotDims.transposedRhs M K N).rhsIdx j k 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rowsDot_rhs_col (j : (⟨2, ![M, N]⟩ : Shape).Idx) (k : (DotDims.transposedRhs M K N).contr.Idx) :
    ((DotDims.transposedRhs M K N).rhsIdx j k 1).val = (k ⟨0, Nat.one_pos⟩).val :=
  (DotDims.transposedRhs M K N).rhsIdx_val_of_single rfl j k

/-- The contraction sum of a rows-by-rows product, re-indexed by the column position k < K. -/
theorem rowsDot_contr_sum (l : (⟨2, ![M, K]⟩ : Shape).Idx → EReal) (r : (⟨2, ![N, K]⟩ : Shape).Idx → EReal) (p : Fin M) (q : Fin N) :
    (∑ k : (DotDims.transposedRhs M K N).contr.Idx,
        l ((DotDims.transposedRhs M K N).lhsIdx (ix2 p q) k) * r ((DotDims.transposedRhs M K N).rhsIdx (ix2 p q) k))
      = ∑ k : Fin K, l (ix2 p k) * r (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rowsDot_lhs_row _ _
      | ⟨1, _⟩ => exact (rowsDot_lhs_col _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rowsDot_rhs_row _ _
      | ⟨1, _⟩ => exact (rowsDot_rhs_col _ _).trans hk)
  rw [el, er]

/-- The matrix unit's rows-by-rows product into the zero accumulator, read at (p, q): Σ_k l[p, k] · r[q, k]. -/
theorem matmul_rowsDot_zero_apply {φ₁ φ₂ : FTy} (prec : Option ContractPrecision)
    (l : FVec Ideal ⟨2, ![M, K]⟩ φ₁) (r : FVec Ideal ⟨2, ![N, K]⟩ φ₂) (p : Fin M) (q : Fin N) :
    FloatOps.matmul (DotDims.transposedRhs M K N) prec l r (constant ⟨2, ![M, N]⟩ .f32 0x00000000#32) (ix2 p q)
      = ∑ k : Fin K, l (ix2 p k) * r (ix2 q k) := by
  rw [Ideal.matmul_constant_zero_apply]
  exact rowsDot_contr_sum l r p q

/-- The host's dot_general with the same dimension numbers, read at (p, q): the same sum. -/
theorem dotGeneral_rowsDot_apply {φ₁ φ₂ : FTy} (prec : Option ContractPrecision) (sched : HostSchedule)
    (l : FVec Ideal ⟨2, ![M, K]⟩ φ₁) (r : FVec Ideal ⟨2, ![N, K]⟩ φ₂) (p : Fin M) (q : Fin N) :
    FloatOps.dotGeneral (DotDims.transposedRhs M K N) prec sched l r (ix2 p q) = ∑ k : Fin K, l (ix2 p k) * r (ix2 q k) := by
  rw [Ideal.dotGeneral_apply]
  exact rowsDot_contr_sum l r p q

end Cert.Lib

end
-- ==== Proof.Payload.lean ====
/-
  One grid step's arithmetic, read at an entry.

  A step holds a [256, 4096] tile x of base (256 consecutive positions of one batch), the folded matrix W and the
  transposed bb, both [16, 4096].  It forms  t = x · Wᵀ  ([256, 16]: row s of x against each row of W), then
  t · bbᵀ-as-stored ([256, 4096]) and adds x.  The roundings of the operands to bf16 are the identity on extended reals, and a
  matrix product into a zero accumulator is the plain finite sum.  So entry (s, d) of the step's result is

      x[s, d] + Σ_j ( Σ_c x[s, c] · W[j, c] ) · bbT[j, d] .
-/
import proofs.«165357_j30502857736485_2_alg».proof.Proof.Gen.KernelIdeal.Skeleton
import proofs.«165357_j30502857736485_2_alg».proof.Proof.LibPlainDot
import proofs.«165357_j30502857736485_2_alg».proof.Proof.LibRowsDot
import Idealize.ShloMosaic.Lib.ValueLayout
import Idealize.ShloMosaic.Lib.Pipeline.Value

noncomputable section

namespace Cert.LowRank.Step

open Cert.KernelIdeal Cert.KernelIdeal.Gen Idealize.ShloMosaic Idealize.ShloMosaic.ValueIdx

/-- The step's stored value at (u, s, d), u the unit leading coordinate of the tile. -/
theorem pay_apply (v0 : (⟨3, ![1, 256, 4096]⟩ : Shape).Idx → EReal) (v3 v8 : (⟨2, ![16, 4096]⟩ : Shape).Idx → EReal)
    (u : Fin 1) (s : Fin 256) (d : Fin 4096) :
    (k0_pay1 (F := Ideal) v0 v3 v8 (ix3 u s d) : EReal)
      = v0 (ix3 (0 : Fin 1) s d)
        + ∑ j : Fin 16, (∑ c : Fin 4096, v0 (ix3 (0 : Fin 1) s c) * v3 (ix2 j c)) * v8 (ix2 j d) := by
  unfold k0_pay1
  refine (shapeCast_ab_1ab_apply _ _ u s d).trans ?_
  refine congrArg₂ (· + ·) (shapeCast_1ab_ab_apply v0 _ s d) ?_
  refine (Cert.Lib.matmul_plain_zero_apply (M := 256) (K := 16) (N := 4096) none _ _ s d).trans ?_
  refine Finset.sum_congr rfl fun j _ => congrArg₂ (· * ·) ?_ ?_
  · refine (Cert.Lib.matmul_rowsDot_zero_apply (M := 256) (K := 4096) (N := 16) none _ _ s j).trans ?_
    refine Finset.sum_congr rfl fun c _ => congrArg₂ (· * ·) ?_ ?_
    · exact shapeCast_1ab_ab_apply v0 _ s c
    · exact congrFun (shapeCast_self v3 _) (ix2 j c)
  · exact congrFun (shapeCast_self v8 _) (ix2 j d)

end Cert.LowRank.Step

end
-- ==== Proof.HostPrefix.lean ====
/-
  What the host computes before the grid starts.

  Two [16, 4096] matrices are prepared once.  The first is the folded matrix: E is flattened to a vector of 32, laid
  along the rows of Bᵀ ([16, 32]) and multiplied in, the result contracted with aaᵀ ([32, 16]) to a [16, 16] matrix,
  that matrix transposed and contracted with A.  Read at (j, c) this is
      Σ_k ( Σ_r (B[r, k] · E[r, 0]) · aa[j, r] ) · A[k, c]   = `folded A E B aa` (j, c).
  The second is bb transposed: entry (j, d) is bb[d, j].
-/
import proofs.«165357_j30502857736485_2_alg».proof.Proof.Gen.KernelIdeal.Frame
import proofs.«165357_j30502857736485_2_alg».proof.Proof.Spec
import proofs.«165357_j30502857736485_2_alg».proof.Proof.LibPlainDot
import Idealize.ShloMosaic.Lib.ValueLayout
import Idealize.ShloMosaic.Lib.Pipeline.Value
import Idealize.ShloMosaic.Lib.StableHlo.Run

noncomputable section

namespace Cert.LowRank.Prefix

open Cert.KernelIdeal Cert.KernelIdeal.Gen Idealize.ShloMosaic Idealize.ShloMosaic.ValueIdx
open Idealize.ShloMosaic.TcCoe Idealize.SL.Sem Idealize.ShloMosaic.StableHlo

/-- The scaling vector as the host lays it out: E flattened, put on a unit row, repeated over 16 rows. -/
theorem scaleRows_apply (E : FVec Ideal S32x1 .f32) (k : Fin 16) (r : Fin 32) :
    broadcastInDim S16x32 ![0, 1] bcast_S1x32_S16x32_0_1
        (broadcastInDim S1x32 ![1] bcast_S32_S1x32_1 (shapeCast S32 E shapeCasts_S32x1_S32)) (ix2 k r)
      = E (ix2 r (0 : Fin 1)) := by
  refine (broadcastInDim_apply _ bcast_S1x32_S16x32_0_1 _ (ix2 k r) (ix2 (0 : Fin 1) r) (fun a => ?_)).trans ?_
  · match a with
    | ⟨0, _⟩ => show (0 : Nat) = if (1 : Nat) = 1 then 0 else k.val; rw [if_pos rfl]
    | ⟨1, _⟩ => show r.val = if (32 : Nat) = 1 then 0 else r.val; rw [if_neg (by decide)]
  refine (broadcastInDim_apply _ bcast_S32_S1x32_1 _ (ix2 (0 : Fin 1) r) (ix1 r) (fun a => ?_)).trans ?_
  · match a with
    | ⟨0, _⟩ => show r.val = if (32 : Nat) = 1 then 0 else r.val; rw [if_neg (by decide)]
  exact shapeCast_apply E shapeCasts_S32x1_S32 (ix1 r) (ix2 r (0 : Fin 1)) (by
    rw [Shape.rowMajor_val_two, Shape.rowMajor_val_one]; show r.val * 1 + 0 = r.val; omega)

/-- The host's term for the folded matrix, as a function of the four small arguments. -/
def foldedTerm (A : FVec Ideal S16x4096 .f32) (E : FVec Ideal S32x1 .f32) (B : FVec Ideal S32x16 .f32)
    (aa : FVec Ideal S16x32 .f32) : FVec Ideal S16x4096 .f32 :=
  Host.dotGeneral (F := Ideal) dot_S16x16_S16x4096_S16x4096_1_0_0_1_n_n (some .fp32)
    (transpose S16x16 [1, 0]
      (Host.dotGeneral (F := Ideal) dot_S16x32_S32x16_S16x16_1_0_0_1_n_n (some .fp32)
        (mulf (F := Ideal) (φ := .f32) (transpose S16x32 [1, 0] B transposes_S32x16_S16x32_1_0)
          (broadcastInDim S16x32 ![0, 1] bcast_S1x32_S16x32_0_1
            (broadcastInDim S1x32 ![1] bcast_S32_S1x32_1 (shapeCast S32 E shapeCasts_S32x1_S32))))
        (transpose S32x16 [1, 0] aa transposes_S16x32_S32x16_1_0))
      transposes_S16x16_S16x16_1_0)
    A

/-- Entry (j, c) of the host's folded matrix is `folded` there. -/
theorem foldedTerm_apply (A : FVec Ideal S16x4096 .f32) (E : FVec Ideal S32x1 .f32) (B : FVec Ideal S32x16 .f32)
    (aa : FVec Ideal S16x32 .f32) (j : Fin 16) (c : Fin 4096) :
    foldedTerm A E B aa (ix2 j c) = Cert.LowRank.folded A E B aa (ix2 j c) := by
  unfold foldedTerm
  simp only [Host.dotGeneral]
  refine (Cert.Lib.dotGeneral_plain_apply (M := 16) (K := 16) (N := 4096) _ _ _ _ j c).trans ?_
  show _ = ∑ k : Fin 16, (∑ r : Fin 32, (B (ix2 r k) * E (ix2 r (0 : Fin 1))) * aa (ix2 j r)) * A (ix2 k c)
  refine Finset.sum_congr rfl fun k _ => congrArg (· * A (ix2 k c)) ?_
  refine (transpose_ix2_apply _ transposes_S16x16_S16x16_1_0 j k).trans ?_
  refine (Cert.Lib.dotGeneral_plain_apply (M := 16) (K := 32) (N := 16) _ _ _ _ k j).trans ?_
  refine Finset.sum_congr rfl fun r _ => congrArg₂ (· * ·) ?_ ?_
  · refine congrArg₂ (· * ·) ?_ ?_
    · exact transpose_ix2_apply B transposes_S32x16_S16x32_1_0 k r
    · exact scaleRows_apply E k r
  · exact transpose_ix2_apply aa transposes_S16x32_S32x16_1_0 r j

variable (m : (ℓ : Loc nD τ sig) → Buf (Elt Ideal) ℓ)

/-- When the grid starts, the second operand of the call holds the folded matrix of the arguments. -/
theorem V_folded (c : Dev nD) :
    (V m c main_v8 : S16x4096.Idx → EReal)
      = foldedTerm (m ((c : Thread nD τ).loc main_arg1)) (m ((c : Thread nD τ).loc main_arg2))
          (m ((c : Thread nD τ).loc main_arg3)) (m ((c : Thread nD τ).loc main_arg4)) := by
  dsimp only [V, hostOps0]
  after_results
  rfl

/-- … and the third operand holds bb transposed. -/
theorem V_bbT (c : Dev nD) :
    (V m c main_v9 : S16x4096.Idx → EReal)
      = transpose S16x4096 [1, 0] (m ((c : Thread nD τ).loc main_arg5)) transposes_S4096x16_S16x4096_1_0 := by
  dsimp only [V, hostOps0]
  after_results

/-- Entry (j, d) of the transposed bb. -/
theorem bbT_apply (bb : FVec Ideal S4096x16 .f32) (j : Fin 16) (d : Fin 4096) :
    transpose S16x4096 [1, 0] bb transposes_S4096x16_S16x4096_1_0 (ix2 j d) = bb (ix2 d j) :=
  transpose_ix2_apply bb transposes_S4096x16_S16x4096_1_0 j d

end Cert.LowRank.Prefix

end
-- ==== Proof.KernelValue.lean ====
/-
  From grid steps to the whole output array.

  The grid has 4 × 16 points; point t = (b, q) reads the tile base[b, 256·q … 256·q + 255, ·] and the two whole
  [16, 4096] operands, and writes the tile of the same position of the output.  Every step computes, at each entry of
  its tile, the value of ONE function of the whole arrays,

      kernelArray X W T (b, s, d) = X[b, s, d] + Σ_j ( Σ_c X[b, s, c] · W[j, c] ) · T[j, d] ,

  because the row (b, s) of base that the entry depends on lies inside the tile.  The 64 tiles cover the output, so
  the output array ends equal to `kernelArray` of base, the folded matrix and the transposed bb; with real entries that
  is `update` of the six arguments.
-/
import proofs.«165357_j30502857736485_2_alg».proof.Proof.Gen.KernelIdeal.Value
import proofs.«165357_j30502857736485_2_alg».proof.Proof.Spec
import proofs.«165357_j30502857736485_2_alg».proof.Proof.Payload
import proofs.«165357_j30502857736485_2_alg».proof.Proof.HostPrefix

set_option maxRecDepth 16384

noncomputable section

namespace Cert.LowRank.Kernel

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)

/-- What the output array holds, as one function of base `X`, the folded matrix `W` and the transposed bb `T`. -/
def kernelArray (X : (⟨3, ![4, 4096, 4096]⟩ : Shape).Idx → EReal) (W T : (⟨2, ![16, 4096]⟩ : Shape).Idx → EReal) :
    (⟨3, ![4, 4096, 4096]⟩ : Shape).Idx → EReal :=
  fun i => X i + ∑ j : Fin 16, (∑ c : Fin 4096, X (ix3 (i 0) (i 1) c) * W (ix2 j c)) * T (ix2 j (i 2))

/-- One step's stored value at a tile entry `y` is `kernelArray` at the array entry `i` under it, as soon as the tile's
    row through `y` is the array's row through `i`, the two small operands are the whole matrices, and the feature
    coordinates agree. -/
theorem step_at (X : (⟨3, ![4, 4096, 4096]⟩ : Shape).Idx → EReal) (W T : (⟨2, ![16, 4096]⟩ : Shape).Idx → EReal)
    (x0 : (⟨3, ![1, 256, 4096]⟩ : Shape).Idx → EReal) (w1 w2 : (⟨2, ![16, 4096]⟩ : Shape).Idx → EReal)
    (i : (⟨3, ![4, 4096, 4096]⟩ : Shape).Idx) (y : (⟨3, ![1, 256, 4096]⟩ : Shape).Idx)
    (h0 : ∀ c : Fin 4096, x0 (ix3 (0 : Fin 1) (y 1) c) = X (ix3 (i 0) (i 1) c))
    (h1 : w1 = W) (h2 : w2 = T) (hy : (y 2).val = (i 2).val) :
    (k0_pay1 (F := Ideal) x0 w1 w2 y : EReal) = kernelArray X W T i := by
  subst h1 h2
  obtain ⟨u, s, d, rfl⟩ : ∃ (u : Fin 1) (s : Fin 256) (d : Fin 4096), y = ix3 u s d := ⟨y 0, y 1, y 2, eq_ix3 y⟩
  obtain ⟨b, p, d', rfl⟩ : ∃ (b : Fin 4) (p : Fin 4096) (d' : Fin 4096), i = ix3 b p d' := ⟨i 0, i 1, i 2, eq_ix3 i⟩
  have hd : d = d' := Fin.ext hy
  subst hd
  rw [Cert.LowRank.Step.pay_apply]
  show _ = X (ix3 b p d) + ∑ j : Fin 16, (∑ c : Fin 4096, X (ix3 b p c) * w1 (ix2 j c)) * w2 (ix2 j d)
  have h0' : ∀ c : Fin 4096, x0 (ix3 (0 : Fin 1) s c) = X (ix3 b p c) := h0
  simp only [h0']

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The printed index maps over the 64 grid points: the input tile moves with the output tile along batch and position,
    neither is cut along the feature axis, and the two small operands are never moved. -/
theorem index_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every (batch, position-tile) pair is some grid point's output tile. -/
theorem index_onto : ∀ (q0 : Fin 4) (q1 : Fin 16), ∃ t : Fin cfg0.N, win0_3.index t = ![q0.val, q1.val, 0] :=
  (by decide +kernel : ∀ (q0 : Fin 4) (q1 : Fin 16), ∃ t : Fin grid0.N, win0_3.index t = ![q0.val, q1.val, 0])

/-- What grid point `t` writes back is the tile at `t` of `kernelArray` of the arrays as the grid finds them. -/
theorem flushed_eq (c : Dev nD) (t : Fin cfg0.N) :
    (dats m 0 c).flushed 3 t
      = ((cfg0.win 3).blk t).view.read (Elt Ideal) (kernelArray (V m c main_arg0) (V m c main_v8) (V m c main_v9)) := by
  rw [flushed3]
  unfold out0_3
  rw [View.canon_unit_zero zero3]
  simp only [View.ld_unit_zero (S := S1x256x4096) zero3, View.ld_unit_zero (S := S16x4096) zero2]
  obtain ⟨e0, e1, e2, e3, e4, e5, e6, e7⟩ := index_facts t
  funext y
  show k0_pay1 (F := Ideal) (iblk m c 0 t) (iblk m c 1 t) (iblk m c 2 t) y
    = kernelArray (V m c main_arg0) (V m c main_v8) (V m c main_v9) (((cfg0.win 3).blk t).view.emb y)
  refine step_at (V m c main_arg0) (V m c main_v8) (V m c main_v9) (iblk m c 0 t) (iblk m c 1 t) (iblk m c 2 t)
    (((cfg0.win 3).blk t).view.emb y) y ?_ ?_ ?_ ?_
  · intro k
    show V m c main_arg0 (((cfg0.win 0).blk t).view.emb (ix3 (0 : Fin 1) (y 1) k)) = V m c main_arg0 _
    refine congrArg (V m c main_arg0) (funext fun a => Fin.ext ?_)
    match a with
    | ⟨0, _⟩ =>
      show win0_0.index t (0 : Fin 3) * 1 + 1 * 0 = win0_3.index t (0 : Fin 3) * 1 + 1 * (y 0).val
      have hy0 : (y 0).val < 1 := (y 0).isLt
      omega
    | ⟨1, _⟩ =>
      show win0_0.index t (1 : Fin 3) * 256 + 1 * (y 1).val = win0_3.index t (1 : Fin 3) * 256 + 1 * (y 1).val
      omega
    | ⟨2, _⟩ =>
      show win0_0.index t (2 : Fin 3) * 4096 + 1 * k.val = k.val
      omega
  · funext z
    show V m c main_v8 (((cfg0.win 1).blk t).view.emb z) = V m c main_v8 z
    refine congrArg (V m c main_v8) (funext fun a => Fin.ext ?_)
    match a with
    | ⟨0, _⟩ => show win0_1.index t (0 : Fin 2) * 16 + 1 * (z 0).val = (z 0).val; omega
    | ⟨1, _⟩ => show win0_1.index t (1 : Fin 2) * 4096 + 1 * (z 1).val = (z 1).val; omega
  · funext z
    show V m c main_v9 (((cfg0.win 2).blk t).view.emb z) = V m c main_v9 z
    refine congrArg (V m c main_v9) (funext fun a => Fin.ext ?_)
    match a with
    | ⟨0, _⟩ => show win0_2.index t (0 : Fin 2) * 16 + 1 * (z 0).val = (z 0).val; omega
    | ⟨1, _⟩ => show win0_2.index t (1 : Fin 2) * 4096 + 1 * (z 1).val = (z 1).val; omega
  · show (y 2).val = win0_3.index t (2 : Fin 3) * 4096 + 1 * (y 2).val
    omega

/-- An entry of the output is in point `t`'s tile iff each coordinate is in the tile's range on its axis. -/
theorem mem_tile (t : Fin cfg0.N) (i : S4x4096x4096.Idx) :
    i ∈ ((cfg0.win 3).blk t).view.set ↔ ∀ a : Fin 3, win0_3.index t a * S1x256x4096.size a ≤ (i a).val
      ∧ (i a).val < win0_3.index t a * S1x256x4096.size a + S1x256x4096.size a := by
  show i ∈ ((View.whole main_v10).slice (win0_3.rect t)).set ↔ _
  rw [View.set_slice_whole, Rect.mem_set_unit]
  exact Iff.rfl

/-- The 64 tiles cover the output: entry (b, s, d) lies in the tile of the point with batch b and position tile s / 256. -/
theorem cover (i : S4x4096x4096.Idx) :
    ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 4096 := (i 2).isLt
  obtain ⟨t, ht⟩ := index_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_tile]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 4096 ≤ (i 2).val ∧ (i 2).val < win0_3.index t (2 : Fin 3) * 4096 + 4096
    omega

/-- After the run the output array is `kernelArray` of the arrays as the grid finds them. -/
theorem final_array (c : Dev nD) :
    (dats m 0 c).arrAt 3 cfg0.N = kernelArray (V m c main_arg0) (V m c main_v8) (V m c main_v9) :=
  (dats m 0 c).arrAt_eq_of_cover 3 _ (fun t _ => flushed_eq m c t) cover

/-- With real entries, `kernelArray` of base, the host's folded matrix and the transposed bb is `update`. -/
theorem kernelArray_eq_update (x : (⟨3, ![4, 4096, 4096]⟩ : Shape).Idx → EReal) (A : (⟨2, ![16, 4096]⟩ : Shape).Idx → EReal)
    (E : (⟨2, ![32, 1]⟩ : Shape).Idx → EReal) (B : (⟨2, ![32, 16]⟩ : Shape).Idx → EReal)
    (aa : (⟨2, ![16, 32]⟩ : Shape).Idx → EReal) (bb : (⟨2, ![4096, 16]⟩ : Shape).Idx → EReal)
    (hx : AllReal x) (hA : AllReal A) (hE : AllReal E) (hB : AllReal B) (ha : AllReal aa) :
    kernelArray x (Cert.LowRank.Prefix.foldedTerm A E B aa)
        (transpose S16x4096 [1, 0] bb transposes_S4096x16_S16x4096_1_0)
      = update x A E B aa bb := by
  funext i
  obtain ⟨b, s, d, rfl⟩ : ∃ (b : Fin 4) (s : Fin 4096) (d : Fin 4096), i = ix3 b s d := ⟨i 0, i 1, i 2, eq_ix3 i⟩
  rw [update_eq_folded x A E B aa bb hx hA hE hB ha b s d]
  show x (ix3 b s d) + ∑ j : Fin 16, (∑ c : Fin 4096, x (ix3 b s c) * Cert.LowRank.Prefix.foldedTerm A E B aa (ix2 j c))
      * transpose S16x4096 [1, 0] bb transposes_S4096x16_S16x4096_1_0 (ix2 j d) = _
  exact congrArg (x (ix3 b s d) + ·) (Finset.sum_congr rfl fun j _ => congrArg₂ (· * ·)
    (Finset.sum_congr rfl fun c _ => congrArg (x (ix3 b s c) * ·) (Cert.LowRank.Prefix.foldedTerm_apply A E B aa j c))
    (Cert.LowRank.Prefix.bbT_apply bb j d))

/-- The kernel's run: the output array ends at `update` of the argument arrays (given that their entries are real), and the
    arguments are unchanged. -/
theorem run
    (hreal : ∀ c : Dev nD, AllReal (m ((c : Thread nD τ).loc main_arg0)) ∧ AllReal (m ((c : Thread nD τ).loc main_arg1))
      ∧ AllReal (m ((c : Thread nD τ).loc main_arg2)) ∧ AllReal (m ((c : Thread nD τ).loc main_arg3))
      ∧ AllReal (m ((c : Thread nD τ).loc main_arg4))) :
    θ_run defs (onTc (τ := τ) (main (F := Ideal))) ⟨m, fun _ => 0, ρ⟩ fun r => ∀ c : Dev nD,
      r.2.mem ((c : Thread nD τ).loc main_v10)
        = update (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨by
      obtain ⟨h0, h1, h2, h3, h4⟩ := hreal c
      rw [(h c).1, final_array m c, V_main_arg0 m c, Cert.LowRank.Prefix.V_folded m c, Cert.LowRank.Prefix.V_bbT m c]
      exact kernelArray_eq_update _ _ _ _ _ _ h0 h1 h2 h3 h4, (h c).2⟩)
    (run_blocks m ρ)

end Cert.LowRank.Kernel

end
-- ==== Proof.lean ====
/-
  A low-rank update of a [4, 4096, 4096] array, the kernel against its reference, over the extended reals.

  Both programs compute  out = base + base · (Aᵀ · Bᵀ · diag(E) · aaᵀ · bbᵀ)  through factors of rank at most 32.
  The reference pushes each row of base through the five factors from left to right.  The kernel first folds the
  three small factors and A into one [16, 4096] matrix W on the host, and then, tile by tile over a 4 × 16 grid, forms
  (x · Wᵀ) · bbᵀ + x for the 256 rows x of the tile.  Over the extended reals the roundings to bf16 are the identity and
  a matrix product is the exact finite sum, so the two results differ only in the ORDER in which the finite sums
  over the 4096 features, the 16 ranks and the 32 inner lanes are taken and in how the products are grouped.  For real
  (finite) entries — which is what the precondition states — sums may be interchanged and products regrouped, and the
  two results are the same function `Cert.LowRank.update` of the six arguments, entry by entry.  (With an infinite
  entry the regrouping would fail: distributivity does not hold at ±∞; this is where the precondition is used.)

  The modules: `LibFoldedChain` (the regrouping of the sums, over ℝ and lifted to real-valued extended reals), `Spec`
  (`update` and its folded form), `Finite` (the precondition says every entry is real), `RefValue` (the reference's
  result is `update`), `Payload` (one grid step at an entry), `HostPrefix` (what the host prepares before the grid),
  `KernelValue` (the tiles cover the output; the kernel's result is `update`).  The idealization rewrote nothing, so
  `preserves` is trivial; the three frames are the generated ones.
-/
import proofs.«165357_j30502857736485_2_alg».proof.Defs
import proofs.«165357_j30502857736485_2_alg».proof.Proof.Gen.Kernel
import proofs.«165357_j30502857736485_2_alg».proof.Proof.Gen.Kernel.Skeleton
import proofs.«165357_j30502857736485_2_alg».proof.Proof.Gen.Kernel.Launch
import proofs.«165357_j30502857736485_2_alg».proof.Proof.Gen.Kernel.Points
import proofs.«165357_j30502857736485_2_alg».proof.Proof.Gen.Kernel.Frame
import proofs.«165357_j30502857736485_2_alg».proof.Proof.Gen.KernelIdeal
import proofs.«165357_j30502857736485_2_alg».proof.Proof.Gen.KernelIdeal.Skeleton
import proofs.«165357_j30502857736485_2_alg».proof.Proof.Gen.KernelIdeal.Launch
import proofs.«165357_j30502857736485_2_alg».proof.Proof.Gen.KernelIdeal.Points
import proofs.«165357_j30502857736485_2_alg».proof.Proof.Gen.KernelIdeal.Frame
import proofs.«165357_j30502857736485_2_alg».proof.Proof.Gen.ReferenceIdeal
import proofs.«165357_j30502857736485_2_alg».proof.Proof.Gen.Pre_finite_inputs
import proofs.«165357_j30502857736485_2_alg».proof.Proof.Gen.KernelIdeal.Value
import proofs.«165357_j30502857736485_2_alg».proof.Proof.Gen.ReferenceIdeal.Run
import proofs.«165357_j30502857736485_2_alg».proof.Proof.Gen.ReferenceIdeal.Read
import proofs.«165357_j30502857736485_2_alg».proof.Proof.Finite
import proofs.«165357_j30502857736485_2_alg».proof.Proof.RefValue
import proofs.«165357_j30502857736485_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From agreeing, finite arguments both programs end with the output at `update` of the arguments. -/
theorem algebraic : Cert.algebraic_KernelIdeal_ReferenceIdeal := by
  intro m ρ m' ρ' hpre hagree
  have hreal := fun c : Dev Cert.KernelIdeal.nD => Cert.LowRank.allReal_of_pre _ _ _ _ _ _ (hpre c)
  refine ⟨_, Cert.LowRank.Kernel.run m ρ (fun c => ⟨(hreal c).1, (hreal c).2.1, (hreal c).2.2.1, (hreal c).2.2.2.1,
    (hreal c).2.2.2.2.1⟩), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.LowRank.Ref.result_eq_update, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
